-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x32 : Shape := ⟨3, ![4, 100000, 32]⟩
abbrev S1600000 : Shape := ⟨1, ![1600000]⟩
abbrev S2x1600000 : Shape := ⟨2, ![2, 1600000]⟩
abbrev S_ : Shape := ⟨0, ![]⟩

class Facts : Prop where
  bcast_S_S4x100000x32 : S_.BroadcastsInDim S4x100000x32 (![] : Fin 0 → Fin S4x100000x32.rank)
  reducesTo_S4x100000x32_S_d0_1_2 : S4x100000x32.ReducesTo [0, 1, 2] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S4x100000x32 .f32) (main_arg1 : FVec F S1600000 .f32) (main_arg2 : IVec S2x1600000 32) : IVec S_ 1 :=
  let main_v0 : FVec F S4x100000x32 .f32 := Host.absf main_arg0
  let main_cst : FVec F S_ .f32 := constant S_ .f32 0x7F800000#32
  let main_v1 : FVec F S4x100000x32 .f32 := broadcastInDim S4x100000x32 ![] bcast_S_S4x100000x32 main_cst
  let main_v2 : IVec S4x100000x32 1 := cmpf .olt main_v0 main_v1
  let main_c : IVec S_ 1 := constantI S_ 1 1#1
  let main_v3 : IVec S_ 1 := (fun x v => Host.reduce IntOp.andi x v reducesTo_S4x100000x32_S_d0_1_2 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S4x100000x32 : Shape := ⟨3, ![4, 100000, 32]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S4x1600000x32 : Shape := ⟨3, ![4, 1600000, 32]⟩
abbrev S4x3200x32 : Shape := ⟨3, ![4, 3200, 32]⟩
abbrev S1x3200 : Shape := ⟨2, ![1, 3200]⟩
abbrev S1x3200x1 : Shape := ⟨3, ![1, 3200, 1]⟩
abbrev S100000x32 : Shape := ⟨2, ![100000, 32]⟩
abbrev S100000 : Shape := ⟨1, ![100000]⟩
abbrev S1x100000x1 : Shape := ⟨3, ![1, 100000, 1]⟩
abbrev S4x2000x32 : Shape := ⟨3, ![4, 2000, 32]⟩
abbrev S1x2000x1 : Shape := ⟨3, ![1, 2000, 1]⟩

abbrev nBuf : Space → Nat
  | .hbm => 30
  | .vmem => 12
  | .smem => 0
  | _ => 0

abbrev bufTy : (tb : Table) → Fin (tcTables nBuf tb) → BufTy
  | .hbm, ⟨0, _⟩ => ⟨S4x100000x32, .f32⟩
  | .hbm, ⟨1, _⟩ => ⟨S1600000, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S4x1600000x32, .f32⟩
  | .hbm, ⟨16, _⟩ => ⟨S1x1600000, .f32⟩
  | .hbm, ⟨17, _⟩ => ⟨S4x1600000x32, .f32⟩
  | .hbm, ⟨18, _⟩ => ⟨S1600000, .f32⟩
  | .hbm, ⟨19, _⟩ => ⟨S_, .f32⟩
  | .hbm, ⟨20, _⟩ => ⟨S100000x32, .f32⟩
  | .hbm, ⟨21, _⟩ => ⟨S1600000x1, .i32⟩
  | .hbm, ⟨22, _⟩ => ⟨S4x100000x32, .f32⟩
  | .hbm, ⟨23, _⟩ => ⟨S4x100000x32, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S1x100000x1, .f32⟩
  | .hbm, ⟨29, _⟩ => ⟨S4x100000x32, .f32⟩
  | .local _ .vmem, ⟨0, _⟩ => ⟨S4x3200x32, .f32⟩
  | .local _ .vmem, ⟨1, _⟩ => ⟨S4x3200x32, .f32⟩
  | .local _ .vmem, ⟨2, _⟩ => ⟨S1x3200, .f32⟩
  | .local _ .vmem, ⟨3, _⟩ => ⟨S1x3200, .f32⟩
  | .local _ .vmem, ⟨4, _⟩ => ⟨S4x3200x32, .f32⟩
  | .local _ .vmem, ⟨5, _⟩ => ⟨S4x3200x32, .f32⟩
  | .local _ .vmem, ⟨6, _⟩ => ⟨S4x2000x32, .f32⟩
  | .local _ .vmem, ⟨7, _⟩ => ⟨S4x2000x32, .f32⟩
  | .local _ .vmem, ⟨8, _⟩ => ⟨S1x2000x1, .f32⟩
  | .local _ .vmem, ⟨9, _⟩ => ⟨S1x2000x1, .f32⟩
  | .local _ .vmem, ⟨10, _⟩ => ⟨S4x2000x32, .f32⟩
  | .local _ .vmem, ⟨11, _⟩ => ⟨S4x2000x32, .f32⟩
  | _, _ => ⟨S4x100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x3200x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1x1600000 : S1600000.ShapeCasts S1x1600000
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  inb_S4x3200x32_S4x3200x32_0_0_0 : ∀ a, (![0, 0, 0] : Fin 3 → Nat) a + S4x3200x32.size a ≤ S4x3200x32.size a
  h_S4x3200x32 : 0 < S4x3200x32.numel
  shapeCasts_S4x3200x32_S4x3200x32 : S4x3200x32.ShapeCasts S4x3200x32
  shapeCasts_S1x3200_S1x3200x1 : S1x3200.ShapeCasts S1x3200x1
  broadcasts_S1x3200x1_S4x3200x32 : S1x3200x1.Broadcasts S4x3200x32
  bcast_S_S100000x32 : S_.BroadcastsInDim S100000x32 (![] : Fin 0 → Fin S100000x32.rank)
  bcast_S100000x32_S4x100000x32_1_2 : S100000x32.BroadcastsInDim S4x100000x32 (![1, 2] : Fin 2 → Fin S4x100000x32.rank)
  bcast_S_S100000 : S_.BroadcastsInDim S100000 (![] : Fin 0 → Fin S100000.rank)
  shapeCasts_S100000_S1x100000x1 : S100000.ShapeCasts S1x100000x1
  inb_S4x2000x32_S4x2000x32_0_0_0 : ∀ a, (![0, 0, 0] : Fin 3 → Nat) a + S4x2000x32.size a ≤ S4x2000x32.size a
  h_S4x2000x32 : 0 < S4x2000x32.numel
  shapeCasts_S4x2000x32_S4x2000x32 : S4x2000x32.ShapeCasts S4x2000x32
  inb_S1x2000x1_S1x2000x1_0_0_0 : ∀ a, (![0, 0, 0] : Fin 3 → Nat) a + S1x2000x1.size a ≤ S1x2000x1.size a
  h_S1x2000x1 : 0 < S1x2000x1.numel
  shapeCasts_S1x2000x1_S1x2000x1 : S1x2000x1.ShapeCasts S1x2000x1
  broadcasts_S1x2000x1_S4x2000x32 : S1x2000x1.Broadcasts S4x2000x32
  gather_S4x100000x32_S1600000x1_S4x1600000x32_02_1_n_n_1_1_4132_wf : GatherDims.WF S4x100000x32 S1600000x1 S4x1600000x32 [0, 2] [1] [] [1] [] 1 ![4, 1, 32]
  scatter_S4x100000x32_S1600000x1_S4x1600000x32_02_1_1_1_wf : ScatterDims.WF S4x100000x32 S1600000x1 S4x1600000x32 [0, 2] [1] [1] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3200x32.size a ≤ S4x1600000x32.size a
  hwx0_0 : ∀ i : grid0.Coords, EltTy.bits .f32 = 32 ∨ (Rect.block (s := S4x1600000x32) S4x3200x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x1600000.size a
  hwx0_1 : ∀ i : grid0.Coords, EltTy.bits .f32 = 32 ∨ (Rect.block (s := S1x1600000) S1x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3200x32.size a ≤ S4x1600000x32.size a
  hwx0_2 : ∀ i : grid0.Coords, EltTy.bits .f32 = 32 ∨ (Rect.block (s := S4x1600000x32) S4x3200x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x32.size a ≤ S4x100000x32.size a
  hwx1_0 : ∀ i : grid1.Coords, EltTy.bits .f32 = 32 ∨ (Rect.block (s := S4x100000x32) S4x2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2000x1.size a ≤ S1x100000x1.size a
  hwx1_1 : ∀ i : grid1.Coords, EltTy.bits .f32 = 32 ∨ (Rect.block (s := S1x100000x1) S1x2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x2000x32.size a ≤ S4x100000x32.size a
  hwx1_2 : ∀ i : grid1.Coords, EltTy.bits .f32 = 32 ∨ (Rect.block (s := S4x100000x32) S4x2000x32.size (cc1_transform_2 i) (hinb1_2 i)).WholeWords (EltTy.packing .f32)

variable [Facts₀]

def gather_S4x100000x32_S1600000x1_S4x1600000x32_02_1_n_n_1_1_4132 : GatherDims S4x100000x32 S1600000x1 S4x1600000x32 where
  offsetDims := [0, 2]
  collapsedSliceDims := [1]
  operandBatchingDims := []
  startIndicesBatchingDims := []
  startIndexMap := [1]
  indexVectorDim := 1
  sliceSizes := ![4, 1, 32]
  wf := gather_S4x100000x32_S1600000x1_S4x1600000x32_02_1_n_n_1_1_4132_wf
def scatter_S4x100000x32_S1600000x1_S4x1600000x32_02_1_1_1 : ScatterDims S4x100000x32 S1600000x1 S4x1600000x32 where
  updateWindowDims := [0, 2]
  insertedWindowDims := [1]
  scatterDimsToOperandDims := [1]
  indexVectorDim := 1
  wf := scatter_S4x100000x32_S1600000x1_S4x1600000x32_02_1_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v10) S4x3200x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x3200x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S4x2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4x2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x100000x32 : Shape := ⟨3, ![4, 100000, 32]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S4x1600000x32 : Shape := ⟨3, ![4, 1600000, 32]⟩
abbrev S1x1600000x1 : Shape := ⟨3, ![1, 1600000, 1]⟩
abbrev S100000x32 : Shape := ⟨2, ![100000, 32]⟩
abbrev S100000 : Shape := ⟨1, ![100000]⟩
abbrev S1x100000x1 : Shape := ⟨3, ![1, 100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x100000x32, .f32⟩
  | .hbm, ⟨1, _⟩ => ⟨S1600000, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S1600000, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S4x1600000x32, .f32⟩
  | .hbm, ⟨17, _⟩ => ⟨S1600000x1, .f32⟩
  | .hbm, ⟨18, _⟩ => ⟨S1x1600000x1, .f32⟩
  | .hbm, ⟨19, _⟩ => ⟨S4x1600000x32, .f32⟩
  | .hbm, ⟨20, _⟩ => ⟨S4x1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S4x100000x32, .f32⟩
  | .hbm, ⟨25, _⟩ => ⟨S4x100000x32, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S1x100000x1, .f32⟩
  | .hbm, ⟨31, _⟩ => ⟨S_, .f32⟩
  | .hbm, ⟨32, _⟩ => ⟨S1x100000x1, .f32⟩
  | .hbm, ⟨33, _⟩ => ⟨S1x100000x1, .f32⟩
  | .hbm, ⟨34, _⟩ => ⟨S4x100000x32, .f32⟩
  | .hbm, ⟨35, _⟩ => ⟨S4x100000x32, .f32⟩
  | _, _ => ⟨S4x100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1x1600000x1_1_2 : S1600000x1.BroadcastsInDim S1x1600000x1 (![1, 2] : Fin 2 → Fin S1x1600000x1.rank)
  bcast_S1x1600000x1_S4x1600000x32_0_1_2 : S1x1600000x1.BroadcastsInDim S4x1600000x32 (![0, 1, 2] : Fin 3 → Fin S4x1600000x32.rank)
  bcast_S_S100000x32 : S_.BroadcastsInDim S100000x32 (![] : Fin 0 → Fin S100000x32.rank)
  bcast_S100000x32_S4x100000x32_1_2 : S100000x32.BroadcastsInDim S4x100000x32 (![1, 2] : Fin 2 → Fin S4x100000x32.rank)
  bcast_S_S100000 : S_.BroadcastsInDim S100000 (![] : Fin 0 → Fin S100000.rank)
  bcast_S100000_S1x100000x1_1 : S100000.BroadcastsInDim S1x100000x1 (![1] : Fin 1 → Fin S1x100000x1.rank)
  bcast_S_S1x100000x1 : S_.BroadcastsInDim S1x100000x1 (![] : Fin 0 → Fin S1x100000x1.rank)
  bcast_S1x100000x1_S4x100000x32_0_1_2 : S1x100000x1.BroadcastsInDim S4x100000x32 (![0, 1, 2] : Fin 3 → Fin S4x100000x32.rank)
  gather_S4x100000x32_S1600000x1_S4x1600000x32_02_1_n_n_1_1_4132_wf : GatherDims.WF S4x100000x32 S1600000x1 S4x1600000x32 [0, 2] [1] [] [1] [] 1 ![4, 1, 32]
  scatter_S4x100000x32_S1600000x1_S4x1600000x32_02_1_1_1_wf : ScatterDims.WF S4x100000x32 S1600000x1 S4x1600000x32 [0, 2] [1] [1] 1
  scatter_S100000_S1600000x1_S1600000_n_0_0_1_wf : ScatterDims.WF S100000 S1600000x1 S1600000 [] [0] [0] 1

variable [Facts₀]

def gather_S4x100000x32_S1600000x1_S4x1600000x32_02_1_n_n_1_1_4132 : GatherDims S4x100000x32 S1600000x1 S4x1600000x32 where
  offsetDims := [0, 2]
  collapsedSliceDims := [1]
  operandBatchingDims := []
  startIndicesBatchingDims := []
  startIndexMap := [1]
  indexVectorDim := 1
  sliceSizes := ![4, 1, 32]
  wf := gather_S4x100000x32_S1600000x1_S4x1600000x32_02_1_n_n_1_1_4132_wf
def scatter_S4x100000x32_S1600000x1_S4x1600000x32_02_1_1_1 : ScatterDims S4x100000x32 S1600000x1 S4x1600000x32 where
  updateWindowDims := [0, 2]
  insertedWindowDims := [1]
  scatterDimsToOperandDims := [1]
  indexVectorDim := 1
  wf := scatter_S4x100000x32_S1600000x1_S4x1600000x32_02_1_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.KernelRun.lean ====
/-
  The idealized kernel's run with its result buffer NAMED.

  @main is four segments: a stretch of host operations, the message-scaling region, a second stretch of host
  operations, the normalizing region. The contents of the TensorCore's buffers at each boundary are a fold from the
  launch memory (`Gen.W0 … Gen.W4`), and the launch over the segments ends with every unscoped buffer at the last
  boundary's contents `Gen.W4`. Read at the result buffer that says: the result is what the second region's
  write-backs leave in its output array; read at the arguments, that they end as launched.
-/
import proofs.«120685_j52871047413895_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents `Gen.W4` read at it, and the arguments end as launched. -/
theorem run_named : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.Bodies.lean ====
/-
  What each kernel body leaves in its output block, entry by entry.

  The message body multiplies the gathered block by the exponential of the edge weights, the weight row [1, 3200]
  laid along the middle axis: entry (b, e, d) of the output block is x(b, e, d) · exp(w(0, e)). The normalizing body
  divides the aggregated block by the degree column [1, 2000, 1] plus a constant: entry (b, n, d) is
  a(b, n, d) / (s(0, n, 0) + ε). Both hold at any float instance: the bodies are pointwise operations and layout
  operations only.
-/
import proofs.«120685_j52871047413895_2_alg».proof.Proof.Gen.KernelIdeal.Frame
import Idealize.ShloMosaic.Lib.Pipeline.Value

noncomputable section

namespace Cert.KernelIdeal.Bodies

open Cert.KernelIdeal Cert.KernelIdeal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The message body -/

/-- The weight row's entry that entry `y` of a [4, 3200, 32] block meets: (0, y₁). -/
abbrev edgeOf (y : S4x3200x32.Idx) : S1x3200.Idx := fun a => match a with
  | ⟨0, _⟩ => ⟨0, Nat.one_pos⟩
  | ⟨1, _⟩ => ⟨(y 1).val, (y 1).isLt⟩

/-- The same entry of the weight row laid as a [1, 3200, 1] column: (0, y₁, 0). -/
abbrev edgeColOf (y : S4x3200x32.Idx) : S1x3200x1.Idx := fun a => match a with
  | ⟨0, _⟩ => ⟨0, Nat.one_pos⟩
  | ⟨1, _⟩ => ⟨(y 1).val, (y 1).isLt⟩
  | ⟨2, _⟩ => ⟨0, Nat.one_pos⟩

/-- Entry `y` of the message block: the gathered entry times the exponential of its edge's weight. -/
theorem message_block_apply (x0 : Vec F S4x3200x32 .f32) (x1 : Vec F S1x3200 .f32) (y : S4x3200x32.Idx) :
    out0_2 x0 x1 y = FloatOps.mulf (x0 y) (FloatOps.exp (x1 (edgeOf y))) := by
  unfold out0_2
  rw [View.canon_unit_zero zeros3]
  simp only [View.ld_unit_zero (S := S1x3200) zeros2, View.ld_unit_zero (S := S4x3200x32) zeros3]
  unfold k0_pay1
  show FloatOps.mulf (shapeCast S4x3200x32 x0 shapeCasts_S4x3200x32_S4x3200x32 y)
      (broadcastTo S4x3200x32 (shapeCast S1x3200x1 (exp (shapeCast S1x3200 x1 shapeCasts_S1x3200_S1x3200)) shapeCasts_S1x3200_S1x3200x1)
        broadcasts_S1x3200x1_S4x3200x32 y) = _
  refine congrArg₂ FloatOps.mulf (congrFun (shapeCast_self x0 _) y) ?_
  refine (broadcastTo_apply _ broadcasts_S1x3200x1_S4x3200x32 y (edgeColOf y) (fun a => match a with
    | ⟨0, _⟩ => by show 0 = if (1 : Nat) = 1 then 0 else _; rw [if_pos rfl]
    | ⟨1, _⟩ => by show (y 1).val = if (3200 : Nat) = 1 then 0 else _; rw [if_neg (by decide)]; rfl
    | ⟨2, _⟩ => by show 0 = if (1 : Nat) = 1 then 0 else _; rw [if_pos rfl])).trans ?_
  refine (shapeCast_apply _ shapeCasts_S1x3200_S1x3200x1 (edgeColOf y) (edgeOf y) (by
    rewrite [Shape.rowMajor_val_two, Shape.rowMajor_val_three]
    show 0 * 3200 + (y 1).val = (0 * 3200 + (y 1).val) * 1 + 0
    omega)).trans ?_
  exact congrArg FloatOps.exp (congrFun (shapeCast_self x1 _) (edgeOf y))

/-! ## The normalizing body -/

/-- The degree column's entry that entry `y` of a [4, 2000, 32] block meets: (0, y₁, 0). -/
abbrev nodeOf (y : S4x2000x32.Idx) : S1x2000x1.Idx := fun a => match a with
  | ⟨0, _⟩ => ⟨0, Nat.one_pos⟩
  | ⟨1, _⟩ => ⟨(y 1).val, (y 1).isLt⟩
  | ⟨2, _⟩ => ⟨0, Nat.one_pos⟩

/-- Entry `y` of the normalized block: the aggregated entry divided by its node's degree plus the constant. -/
theorem normalize_block_apply (x0 : Vec F S4x2000x32 .f32) (x1 : Vec F S1x2000x1 .f32) (y : S4x2000x32.Idx) :
    out1_2 x0 x1 y = FloatOps.divf (x0 y) (FloatOps.addf (x1 (nodeOf y)) (FloatOps.ofBits .f32 0x1E3CE508#32)) := by
  unfold out1_2
  rw [View.canon_unit_zero zeros3]
  simp only [View.ld_unit_zero (S := S1x2000x1) zeros3, View.ld_unit_zero (S := S4x2000x32) zeros3]
  unfold k1_pay1
  show FloatOps.divf (shapeCast S4x2000x32 x0 shapeCasts_S4x2000x32_S4x2000x32 y)
      (broadcastTo S4x2000x32 (addf (shapeCast S1x2000x1 x1 shapeCasts_S1x2000x1_S1x2000x1)
          (broadcast S1x2000x1 (Scalar.ofBits .f32 0x1E3CE508#32)))
        broadcasts_S1x2000x1_S4x2000x32 y) = _
  refine congrArg₂ FloatOps.divf (congrFun (shapeCast_self x0 _) y) ?_
  refine (broadcastTo_apply _ broadcasts_S1x2000x1_S4x2000x32 y (nodeOf y) (fun a => match a with
    | ⟨0, _⟩ => by show 0 = if (1 : Nat) = 1 then 0 else _; rw [if_pos rfl]
    | ⟨1, _⟩ => by show (y 1).val = if (2000 : Nat) = 1 then 0 else _; rw [if_neg (by decide)]; rfl
    | ⟨2, _⟩ => by show 0 = if (1 : Nat) = 1 then 0 else _; rw [if_pos rfl])).trans ?_
  show FloatOps.addf (shapeCast S1x2000x1 x1 shapeCasts_S1x2000x1_S1x2000x1 (nodeOf y)) _ = _
  exact congrArg₂ FloatOps.addf (congrFun (shapeCast_self x1 _) (nodeOf y)) rfl

end Cert.KernelIdeal.Bodies

end
-- ==== Proof.Arrays.lean ====
/-
  From blocks to arrays: what each region leaves in its output array, as ONE function of the arrays it reads.

  The message region walks the edge axis in 500 blocks of 3200: at point t every window's block is rows
  [3200 t, 3200 t + 3200) of its array along that axis, whole along the others, so what point t writes back is block t
  of the array e ↦ x(b, e, d) · exp(w(0, e)); the blocks tile the output, which therefore ends holding that array. The
  normalizing region does the same over the node axis in 50 blocks of 2000, for n ↦ a(b, n, d) / (s(0, n, 0) + ε).
  Both are stated at ANY contents the region is entered from, and at any float instance.
-/
import proofs.«120685_j52871047413895_2_alg».proof.Proof.Bodies

set_option maxRecDepth 16384

noncomputable section

namespace Cert.KernelIdeal.Arrays

open Cert.KernelIdeal Cert.KernelIdeal.Gen Cert.KernelIdeal.Bodies
open Idealize.ShloMosaic Idealize.ShloMosaic.TcCoe Idealize.SL.Sem
open Idealize.ShloMosaic.Pipeline (Dat)

variable {F : FTy → Type} [FloatOps F]

/-! ## The two whole-array functions -/

/-- The weight row's entry that entry `i` of the message array meets: (0, i₁). -/
abbrev edgeAt (i : S4x1600000x32.Idx) : S1x1600000.Idx := fun a => match a with
  | ⟨0, _⟩ => ⟨0, Nat.one_pos⟩
  | ⟨1, _⟩ => ⟨(i 1).val, (i 1).isLt⟩

/-- The messages: each gathered entry times the exponential of its edge's weight. -/
def messages (x : S4x1600000x32.Idx → Elt F .f32) (w : S1x1600000.Idx → Elt F .f32) : S4x1600000x32.Idx → Elt F .f32 :=
  fun i => FloatOps.mulf (x i) (FloatOps.exp (w (edgeAt i)))

/-- The degree column's entry that entry `i` of the output meets: (0, i₁, 0). -/
abbrev nodeAt (i : S4x100000x32.Idx) : S1x100000x1.Idx := fun a => match a with
  | ⟨0, _⟩ => ⟨0, Nat.one_pos⟩
  | ⟨1, _⟩ => ⟨(i 1).val, (i 1).isLt⟩
  | ⟨2, _⟩ => ⟨0, Nat.one_pos⟩

/-- The normalized aggregate: each entry divided by its node's degree plus the constant. -/
def normalized (a : S4x100000x32.Idx → Elt F .f32) (s : S1x100000x1.Idx → Elt F .f32) : S4x100000x32.Idx → Elt F .f32 :=
  fun i => FloatOps.divf (a i) (FloatOps.addf (s (nodeAt i)) (FloatOps.ofBits .f32 0x1E3CE508#32))

variable (V : (c : Dev nD) → (b : Ref sig .tc) → Buf (Elt F) ((c : Thread nD τ).loc b))

/-! ## The message region -/

/-- Where the three windows' blocks sit at point `t`: block `t` along the edge axis, block 0 along the others. -/
theorem blocks_at0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 3) = 0 ∧ win0_2.index t (1 : Fin 3) = t.val ∧ win0_2.index t (2 : Fin 3) = 0 :=
  (by decide +kernel : ∀ t : Fin grid0.N, _)

/-- What point `t` writes back is block `t` of the messages of the arrays the region finds. -/
theorem flushed0_eq (c : Dev nD) (t : Fin cfg0.N) :
    (dat0 V c).flushed 2 t = ((cfg0.win 2).blk t).view.read (Elt F) (messages (V c main_v10) (V c main_v11)) := by
  show (cfg0.win 2).cut (grid0.coords t) ((dat0 V c).after 2 t) = _
  rw [after0_2]
  obtain ⟨a0, a1, a2, b0, b1, o0, o1, o2⟩ := blocks_at0 t
  funext j
  show out0_2 (iblk0 V c 0 t) (iblk0 V c 1 t) j = messages (V c main_v10) (V c main_v11) (((cfg0.win 2).blk t).view.emb j)
  refine (message_block_apply (iblk0 V c 0 t) (iblk0 V c 1 t) j).trans ?_
  unfold messages
  show FloatOps.mulf (V c main_v10 (((cfg0.win 0).blk t).view.emb j)) (FloatOps.exp (V c main_v11 (((cfg0.win 1).blk t).view.emb (edgeOf j))))
     = FloatOps.mulf (V c main_v10 (((cfg0.win 2).blk t).view.emb j)) (FloatOps.exp (V c main_v11 (edgeAt (((cfg0.win 2).blk t).view.emb j))))
  have h0 : ((cfg0.win 0).blk t).view.emb j = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 3200 + 1 * (j 1).val = win0_2.index t (1 : Fin 3) * 3200 + 1 * (j 1).val; omega
    | ⟨2, _⟩ => show win0_0.index t (2 : Fin 3) * 32 + 1 * (j 2).val = win0_2.index t (2 : Fin 3) * 32 + 1 * (j 2).val; omega
  have h1 : ((cfg0.win 1).blk t).view.emb (edgeOf j) = edgeAt (((cfg0.win 2).blk t).view.emb j) := by
    funext a; apply Fin.ext
    match a with
    | ⟨0, _⟩ => show win0_1.index t (0 : Fin 2) * 1 + 1 * 0 = 0; omega
    | ⟨1, _⟩ => show win0_1.index t (1 : Fin 2) * 3200 + 1 * (j 1).val = win0_2.index t (1 : Fin 3) * 3200 + 1 * (j 1).val; omega
  rw [h0, h1]

/-- An index of the message array is in point `t`'s block iff each coordinate is in the block's range on its axis. -/
theorem mem_blk0 (t : Fin cfg0.N) (i : S4x1600000x32.Idx) :
    i ∈ ((cfg0.win 2).blk t).view.set ↔ ∀ a : Fin 3, win0_2.index t a * S4x3200x32.size a ≤ (i a).val ∧ (i a).val < win0_2.index t a * S4x3200x32.size a + S4x3200x32.size a := by
  show i ∈ ((View.whole main_v12).slice (win0_2.rect t)).set ↔ _
  rw [View.set_slice_whole, Rect.mem_set_unit]
  exact Iff.rfl

/-- Every entry of the message array is in the block of the point its edge falls in: point ⌊i₁ / 3200⌋. -/
theorem cover0 (i : S4x1600000x32.Idx) :
    ∃ t : Fin cfg0.N, (cfg0.win 2).flush t = true ∧ i ∈ ((cfg0.win 2).blk t).view.set := by
  have hi0 : (i 0).val < 4 := (i 0).isLt
  have hi1 : (i 1).val < 1600000 := (i 1).isLt
  have hi2 : (i 2).val < 32 := (i 2).isLt
  have hN : cfg0.N = 500 := N_0
  have ht : (i 1).val / 3200 < cfg0.N := by rw [hN]; omega
  refine ⟨⟨(i 1).val / 3200, ht⟩, flush0_2 _, ?_⟩
  rw [mem_blk0]
  obtain ⟨-, -, -, -, -, o0, o1, o2⟩ := blocks_at0 ⟨(i 1).val / 3200, ht⟩
  have o1' : win0_2.index ⟨(i 1).val / 3200, ht⟩ (1 : Fin 3) = (i 1).val / 3200 := o1
  intro a
  match a with
  | ⟨0, _⟩ => show win0_2.index _ (0 : Fin 3) * 4 ≤ (i 0).val ∧ (i 0).val < win0_2.index _ (0 : Fin 3) * 4 + 4; omega
  | ⟨1, _⟩ => show win0_2.index _ (1 : Fin 3) * 3200 ≤ (i 1).val ∧ (i 1).val < win0_2.index _ (1 : Fin 3) * 3200 + 3200; omega
  | ⟨2, _⟩ => show win0_2.index _ (2 : Fin 3) * 32 ≤ (i 2).val ∧ (i 2).val < win0_2.index _ (2 : Fin 3) * 32 + 32; omega

/-- The message region's output array ends holding the messages of the arrays the region finds. -/
theorem final0 (c : Dev nD) : (dat0 V c).arrAt 2 cfg0.N = messages (V c main_v10) (V c main_v11) :=
  (dat0 V c).arrAt_eq_of_cover 2 (messages (V c main_v10) (V c main_v11)) (fun t _ => flushed0_eq V c t) cover0

/-! ## The normalizing region -/

/-- Where the three windows' blocks sit at point `t`: block `t` along the node axis, block 0 along the others. -/
theorem blocks_at1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0 :=
  (by decide +kernel : ∀ t : Fin grid1.N, _)

/-- What point `t` writes back is block `t` of the normalized aggregate of the arrays the region finds. -/
theorem flushed1_eq (c : Dev nD) (t : Fin cfg1.N) :
    (dat1 V c).flushed 2 t = ((cfg1.win 2).blk t).view.read (Elt F) (normalized (V c main_v17) (V c main_v21)) := by
  show (cfg1.win 2).cut (grid1.coords t) ((dat1 V c).after 2 t) = _
  rw [after1_2]
  obtain ⟨a0, a1, a2, b0, b1, b2, o0, o1, o2⟩ := blocks_at1 t
  funext j
  show out1_2 (iblk1 V c 0 t) (iblk1 V c 1 t) j = normalized (V c main_v17) (V c main_v21) (((cfg1.win 2).blk t).view.emb j)
  refine (normalize_block_apply (iblk1 V c 0 t) (iblk1 V c 1 t) j).trans ?_
  unfold normalized
  show FloatOps.divf (V c main_v17 (((cfg1.win 0).blk t).view.emb j)) (FloatOps.addf (V c main_v21 (((cfg1.win 1).blk t).view.emb (nodeOf j))) (FloatOps.ofBits .f32 0x1E3CE508#32))
     = FloatOps.divf (V c main_v17 (((cfg1.win 2).blk t).view.emb j)) (FloatOps.addf (V c main_v21 (nodeAt (((cfg1.win 2).blk t).view.emb j))) (FloatOps.ofBits .f32 0x1E3CE508#32))
  have h0 : ((cfg1.win 0).blk t).view.emb j = ((cfg1.win 2).blk t).view.emb j := by
    funext a; apply Fin.ext
    match a with
    | ⟨0, _⟩ => show win1_0.index t (0 : Fin 3) * 4 + 1 * (j 0).val = win1_2.index t (0 : Fin 3) * 4 + 1 * (j 0).val; omega
    | ⟨1, _⟩ => show win1_0.index t (1 : Fin 3) * 2000 + 1 * (j 1).val = win1_2.index t (1 : Fin 3) * 2000 + 1 * (j 1).val; omega
    | ⟨2, _⟩ => show win1_0.index t (2 : Fin 3) * 32 + 1 * (j 2).val = win1_2.index t (2 : Fin 3) * 32 + 1 * (j 2).val; omega
  have h1 : ((cfg1.win 1).blk t).view.emb (nodeOf j) = nodeAt (((cfg1.win 2).blk t).view.emb j) := by
    funext a; apply Fin.ext
    match a with
    | ⟨0, _⟩ => show win1_1.index t (0 : Fin 3) * 1 + 1 * 0 = 0; omega
    | ⟨1, _⟩ => show win1_1.index t (1 : Fin 3) * 2000 + 1 * (j 1).val = win1_2.index t (1 : Fin 3) * 2000 + 1 * (j 1).val; omega
    | ⟨2, _⟩ => show win1_1.index t (2 : Fin 3) * 1 + 1 * 0 = 0; omega
  rw [h0, h1]

/-- An index of the output array is in point `t`'s block iff each coordinate is in the block's range on its axis. -/
theorem mem_blk1 (t : Fin cfg1.N) (i : S4x100000x32.Idx) :
    i ∈ ((cfg1.win 2).blk t).view.set ↔ ∀ a : Fin 3, win1_2.index t a * S4x2000x32.size a ≤ (i a).val ∧ (i a).val < win1_2.index t a * S4x2000x32.size a + S4x2000x32.size a := by
  show i ∈ ((View.whole main_v22).slice (win1_2.rect t)).set ↔ _
  rw [View.set_slice_whole, Rect.mem_set_unit]
  exact Iff.rfl

/-- Every entry of the output array is in the block of the point its node falls in: point ⌊i₁ / 2000⌋. -/
theorem cover1 (i : S4x100000x32.Idx) :
    ∃ t : Fin cfg1.N, (cfg1.win 2).flush t = true ∧ i ∈ ((cfg1.win 2).blk t).view.set := by
  have hi0 : (i 0).val < 4 := (i 0).isLt
  have hi1 : (i 1).val < 100000 := (i 1).isLt
  have hi2 : (i 2).val < 32 := (i 2).isLt
  have hN : cfg1.N = 50 := N_1
  have ht : (i 1).val / 2000 < cfg1.N := by rw [hN]; omega
  refine ⟨⟨(i 1).val / 2000, ht⟩, flush1_2 _, ?_⟩
  rw [mem_blk1]
  obtain ⟨-, -, -, -, -, -, o0, o1, o2⟩ := blocks_at1 ⟨(i 1).val / 2000, ht⟩
  have o1' : win1_2.index ⟨(i 1).val / 2000, ht⟩ (1 : Fin 3) = (i 1).val / 2000 := o1
  intro a
  match a with
  | ⟨0, _⟩ => show win1_2.index _ (0 : Fin 3) * 4 ≤ (i 0).val ∧ (i 0).val < win1_2.index _ (0 : Fin 3) * 4 + 4; omega
  | ⟨1, _⟩ => show win1_2.index _ (1 : Fin 3) * 2000 ≤ (i 1).val ∧ (i 1).val < win1_2.index _ (1 : Fin 3) * 2000 + 2000; omega
  | ⟨2, _⟩ => show win1_2.index _ (2 : Fin 3) * 32 ≤ (i 2).val ∧ (i 2).val < win1_2.index _ (2 : Fin 3) * 32 + 32; omega

/-- The normalizing region's output array ends holding the normalized aggregate of the arrays the region finds. -/
theorem final1 (c : Dev nD) : (dat1 V c).arrAt 2 cfg1.N = normalized (V c main_v17) (V c main_v21) :=
  (dat1 V c).arrAt_eq_of_cover 2 (normalized (V c main_v17) (V c main_v21)) (fun t _ => flushed1_eq V c t) cover1

end Cert.KernelIdeal.Arrays

end
-- ==== Proof.Stages.lean ====
/-
  The idealized kernel's result as ONE function of the three argument arrays.

  Between the launch and the result lie two stretches of host operations and two regions. Read back from the result:
  the normalizing region leaves a(b, n, d) / (s(0, n, 0) + ε) of the aggregate `a` and the degree column `s` it is entered
  with; the second stretch of host operations makes the aggregate by scatter-adding the message array into the rows the
  edge list names, and the degree by scatter-adding the exponentials of the weights into the same rows; the message
  region leaves x(b, e, d) · exp(w(0, e)) of the gathered array and the weight row it is entered with; the first stretch
  gathers the rows of the input the edge list names (a negative index counted from the end) and lays the weights
  as a row. Composed, that is `kernelValue` of the launch contents of the arguments.
-/
import proofs.«120685_j52871047413895_2_alg».proof.Proof.Arrays
import Idealize.ShloMosaic.Lib.StableHlo.Run

set_option maxRecDepth 16384

noncomputable section

namespace Cert.KernelIdeal.Stages

open Cert.KernelIdeal Cert.KernelIdeal.Gen Cert.KernelIdeal.Arrays
open Idealize.ShloMosaic Idealize.ShloMosaic.TcCoe Idealize.SL.Sem Idealize.ShloMosaic.StableHlo

variable {F : FTy → Type} [FloatOps F]

/-! ## The stages, as functions of the arguments -/

/-- The edge list's first row: the node each edge's message is added into, as an index column. -/
def rowsOf (x2 : (⟨S2x1600000, .i32⟩ : BufTy).Contents (Elt F)) : (⟨S1600000x1, .i32⟩ : BufTy).Contents (Elt F) :=
  broadcastInDim S1600000x1 ![0] bcast_S1600000_S1600000x1_0
    (shapeCast S1600000 (extractStridedSlice S1x1600000 ![0, 0] x2 slices_S2x1600000_S1x1600000_0_0) shapeCasts_S1x1600000_S1600000)

/-- The edge list's second row, a negative entry counted from the end of the node axis: the node each edge reads. -/
def colsOf (x2 : (⟨S2x1600000, .i32⟩ : BufTy).Contents (Elt F)) : (⟨S1600000x1, .i32⟩ : BufTy).Contents (Elt F) :=
  broadcastInDim S1600000x1 ![0] bcast_S1600000_S1600000x1_0
    (select
      (cmpi .slt (shapeCast S1600000 (extractStridedSlice S1x1600000 ![1, 0] x2 slices_S2x1600000_S1x1600000_1_0) shapeCasts_S1x1600000_S1600000)
        (broadcastInDim S1600000 ![] bcast_S_S1600000 (constantI S_ 32 0#32)))
      (addi (shapeCast S1600000 (extractStridedSlice S1x1600000 ![1, 0] x2 slices_S2x1600000_S1x1600000_1_0) shapeCasts_S1x1600000_S1600000)
        (broadcastInDim S1600000 ![] bcast_S_S1600000 (constantI S_ 32 100000#32)))
      (shapeCast S1600000 (extractStridedSlice S1x1600000 ![1, 0] x2 slices_S2x1600000_S1x1600000_1_0) shapeCasts_S1x1600000_S1600000))

/-- The input's rows, one per edge: the row of the node the edge reads. -/
def gathered (x0 : (⟨S4x100000x32, .f32⟩ : BufTy).Contents (Elt F)) (x2 : (⟨S2x1600000, .i32⟩ : BufTy).Contents (Elt F)) :
    (⟨S4x1600000x32, .f32⟩ : BufTy).Contents (Elt F) :=
  Host.gather gather_S4x100000x32_S1600000x1_S4x1600000x32_02_1_n_n_1_1_4132 x0 (colsOf (F := F) x2)

/-- The weights laid as a row [1, 1600000]. -/
def weightRow (x1 : (⟨S1600000, .f32⟩ : BufTy).Contents (Elt F)) : (⟨S1x1600000, .f32⟩ : BufTy).Contents (Elt F) :=
  shapeCast S1x1600000 x1 shapeCasts_S1600000_S1x1600000

/-- The aggregate: the messages scatter-added, from zero, into the rows the edge list names. -/
def aggregate (x0 : (⟨S4x100000x32, .f32⟩ : BufTy).Contents (Elt F)) (x1 : (⟨S1600000, .f32⟩ : BufTy).Contents (Elt F))
    (x2 : (⟨S2x1600000, .i32⟩ : BufTy).Contents (Elt F)) : (⟨S4x100000x32, .f32⟩ : BufTy).Contents (Elt F) :=
  Host.scatterAdd scatter_S4x100000x32_S1600000x1_S4x1600000x32_02_1_1_1
    (broadcastInDim S4x100000x32 ![1, 2] bcast_S100000x32_S4x100000x32_1_2
      (broadcastInDim S100000x32 ![] bcast_S_S100000x32 (constant (F := F) S_ .f32 0x00000000#32)))
    (rowsOf (F := F) x2)
    (messages (gathered x0 x2) (weightRow x1))

/-- The degree: the exponentials of the weights scatter-added, from zero, into the same rows. -/
def degree (x1 : (⟨S1600000, .f32⟩ : BufTy).Contents (Elt F)) (x2 : (⟨S2x1600000, .i32⟩ : BufTy).Contents (Elt F)) :
    (⟨S100000, .f32⟩ : BufTy).Contents (Elt F) :=
  Host.scatterAdd scatter_S100000_S1600000x1_S1600000_n_0_0_1
    (broadcastInDim S100000 ![] bcast_S_S100000 (constant (F := F) S_ .f32 0x00000000#32))
    (rowsOf (F := F) x2)
    (Host.exp x1)

/-- The degree laid as a column [1, 100000, 1]. -/
def degreeCol (x1 : (⟨S1600000, .f32⟩ : BufTy).Contents (Elt F)) (x2 : (⟨S2x1600000, .i32⟩ : BufTy).Contents (Elt F)) :
    (⟨S1x100000x1, .f32⟩ : BufTy).Contents (Elt F) :=
  shapeCast S1x100000x1 (degree x1 x2) shapeCasts_S100000_S1x100000x1

/-- The kernel's value: the aggregate normalized by the degree. -/
def kernelValue (x0 : (⟨S4x100000x32, .f32⟩ : BufTy).Contents (Elt F)) (x1 : (⟨S1600000, .f32⟩ : BufTy).Contents (Elt F))
    (x2 : (⟨S2x1600000, .i32⟩ : BufTy).Contents (Elt F)) : (⟨S4x100000x32, .f32⟩ : BufTy).Contents (Elt F) :=
  normalized (aggregate x0 x1 x2) (degreeCol x1 x2)

variable (m : (ℓ : Loc nD τ sig) → Buf (Elt F) ℓ) (ρ : Dev nD → PrngReg)

/-! ## The message region's entry contents: the first stretch of host operations from the launch memory -/

theorem entry_gathered (c : Dev nD) :
    (V1 m ρ c main_v10 : (⟨S4x1600000x32, .f32⟩ : BufTy).Contents (Elt F))
      = gathered (m ((c.tc : Thread nD τ).loc main_arg0)) (m ((c.tc : Thread nD τ).loc main_arg2)) := by
  show StableHlo.after hostOps0 (W0 m ρ c) (Proc.devRef .tc main_v10) = _
  after_results
  rfl

theorem entry_weightRow (c : Dev nD) :
    (V1 m ρ c main_v11 : (⟨S1x1600000, .f32⟩ : BufTy).Contents (Elt F))
      = weightRow (m ((c.tc : Thread nD τ).loc main_arg1)) := by
  show StableHlo.after hostOps0 (W0 m ρ c) (Proc.devRef .tc main_v11) = _
  after_results
  rfl

/-! ## What the second stretch of host operations finds: the message region's output, and buffers it did not touch -/

theorem mid_messages (c : Dev nD) :
    (W2 m ρ c (Proc.devRef .tc main_v12) : (⟨S4x1600000x32, .f32⟩ : BufTy).Contents (Elt F))
      = messages (gathered (m ((c.tc : Thread nD τ).loc main_arg0)) (m ((c.tc : Thread nD τ).loc main_arg2)))
          (weightRow (m ((c.tc : Thread nD τ).loc main_arg1))) :=
  (W2_arr m ρ c 2).trans ((final0 (V1 m ρ) c).trans (by rw [entry_gathered, entry_weightRow]))

theorem mid_rows (c : Dev nD) :
    (W2 m ρ c (Proc.devRef .tc main_v1) : (⟨S1600000, .i32⟩ : BufTy).Contents (Elt F))
      = shapeCast S1600000 (extractStridedSlice S1x1600000 ![0, 0] (m ((c.tc : Thread nD τ).loc main_arg2)) slices_S2x1600000_S1x1600000_0_0) shapeCasts_S1x1600000_S1600000 :=
  (W2_of_ne m ρ c main_v1 (by decide)).trans (by
    show StableHlo.after hostOps0 (W0 m ρ c) (Proc.devRef .tc main_v1) = _
    after_results
    rfl)

theorem mid_weights (c : Dev nD) :
    (W2 m ρ c (Proc.devRef .tc main_arg1) : (⟨S1600000, .f32⟩ : BufTy).Contents (Elt F))
      = m ((c.tc : Thread nD τ).loc main_arg1) :=
  (W2_of_ne m ρ c main_arg1 (by decide)).trans (by
    show StableHlo.after hostOps0 (W0 m ρ c) (Proc.devRef .tc main_arg1) = _
    after_results)

/-! ## The normalizing region's entry contents: the second stretch of host operations -/

theorem entry_aggregate (c : Dev nD) :
    (V3 m ρ c main_v17 : (⟨S4x100000x32, .f32⟩ : BufTy).Contents (Elt F))
      = aggregate (m ((c.tc : Thread nD τ).loc main_arg0)) (m ((c.tc : Thread nD τ).loc main_arg1)) (m ((c.tc : Thread nD τ).loc main_arg2)) := by
  show StableHlo.after hostOps1 (W2 m ρ c) (Proc.devRef .tc main_v17) = _
  after_results
  rw [mid_rows, mid_messages]
  rfl

theorem entry_degreeCol (c : Dev nD) :
    (V3 m ρ c main_v21 : (⟨S1x100000x1, .f32⟩ : BufTy).Contents (Elt F))
      = degreeCol (m ((c.tc : Thread nD τ).loc main_arg1)) (m ((c.tc : Thread nD τ).loc main_arg2)) := by
  show StableHlo.after hostOps1 (W2 m ρ c) (Proc.devRef .tc main_v21) = _
  after_results
  rw [mid_rows, mid_weights]
  rfl

/-! ## The result -/

/-- The last boundary's contents at the result buffer are `kernelValue` of the arguments' launch contents. -/
theorem result_eq (c : Dev nD) :
    (W4 m ρ c (Proc.devRef .tc main_v22) : (⟨S4x100000x32, .f32⟩ : BufTy).Contents (Elt F))
      = kernelValue (m ((c.tc : Thread nD τ).loc main_arg0)) (m ((c.tc : Thread nD τ).loc main_arg1)) (m ((c.tc : Thread nD τ).loc main_arg2)) :=
  (W4_arr m ρ c 2).trans ((final1 (V3 m ρ) c).trans (by rw [entry_aggregate, entry_degreeCol]; rfl))

end Cert.KernelIdeal.Stages

end
-- ==== Proof.Bridge.lean ====
/-
  The two idealized programs compute one function of the arguments.

  Both gather the input's rows by the edge list's second row, scale each gathered row by the exponential of its edge's
  weight, scatter-add the scaled rows and the exponentials into the rows the edge list's first row names, and divide the
  aggregate by the degree plus one constant. They differ only in layout: the reference spreads the exponentials over the
  message array by three broadcasts where the kernel lays the weights as a row and spreads inside the block, and the
  reference spreads the degree plus the constant by a broadcast where the kernel lays the degree as a column. At the
  ideal instance the kernel's exponential and quotient are the host's, so entry by entry the two messages agree, hence
  the two aggregates (one scatter-add of equal updates); the degrees are one term; and the quotients agree. No
  algebraic law is used, and nothing is asked of the inputs.
-/
import proofs.«120685_j52871047413895_2_alg».proof.Proof.Stages
import proofs.«120685_j52871047413895_2_alg».proof.Proof.Gen.ReferenceIdeal.Read
import Idealize.ShloMosaic.PureOps.Ideal

noncomputable section

namespace Cert.Bridge

open Idealize.ShloMosaic Idealize.ShloMosaic.TcCoe Idealize.SL.Sem
open Cert.KernelIdeal.Stages Cert.KernelIdeal.Arrays

/-- The messages: the reference's product of the gathered rows with the thrice-broadcast exponentials is the kernel's
    message array, entry by entry (both read the weight of edge `j₁`). -/
theorem updates_eq (x0 : (⟨Cert.KernelIdeal.S4x100000x32, .f32⟩ : BufTy).Contents (Elt Ideal))
    (x1 : (⟨Cert.KernelIdeal.S1600000, .f32⟩ : BufTy).Contents (Elt Ideal))
    (x2 : (⟨Cert.KernelIdeal.S2x1600000, .i32⟩ : BufTy).Contents (Elt Ideal)) :
    Cert.ReferenceIdeal.Read.val_main_v15 (F := Ideal) x0 x1 x2 = messages (gathered x0 x2) (weightRow x1) := by
  funext j
  rw [Cert.ReferenceIdeal.Read.val_main_v15_apply, Cert.ReferenceIdeal.Read.val_main_v14_apply,
    Cert.ReferenceIdeal.Read.val_main_v13_apply, Cert.ReferenceIdeal.Read.val_main_v12_apply,
    Cert.ReferenceIdeal.Read.val_main_v4_apply]
  unfold messages
  refine congrArg₂ FloatOps.mulf rfl ?_
  show Ideal.exp (x1 _) = Ideal.exp (weightRow x1 (edgeAt j))
  refine congrArg Ideal.exp ?_
  unfold weightRow
  exact (shapeCast_apply x1 Cert.KernelIdeal.Facts₀.shapeCasts_S1600000_S1x1600000 (edgeAt j) _ (by
    rewrite [Shape.rowMajor_val_one, Shape.rowMajor_val_two]
    show (j 1).val = 0 * 1600000 + (j 1).val
    omega)).symm

/-- The aggregates: one scatter-add, from zero, by the same rows, of equal updates. -/
theorem aggregate_eq (x0 : (⟨Cert.KernelIdeal.S4x100000x32, .f32⟩ : BufTy).Contents (Elt Ideal))
    (x1 : (⟨Cert.KernelIdeal.S1600000, .f32⟩ : BufTy).Contents (Elt Ideal))
    (x2 : (⟨Cert.KernelIdeal.S2x1600000, .i32⟩ : BufTy).Contents (Elt Ideal)) :
    Cert.ReferenceIdeal.Read.val_main_v19 (F := Ideal) x0 x1 x2 = aggregate x0 x1 x2 := by
  unfold Cert.ReferenceIdeal.Read.val_main_v19 aggregate
  rw [updates_eq]
  rfl

/-- The divisors: the reference's broadcast of degree plus constant, read at `i`, is the kernel's degree column at
    node `i₁` plus the same constant. -/
theorem divisor_eq (x1 : (⟨Cert.KernelIdeal.S1600000, .f32⟩ : BufTy).Contents (Elt Ideal))
    (x2 : (⟨Cert.KernelIdeal.S2x1600000, .i32⟩ : BufTy).Contents (Elt Ideal)) (i : Cert.KernelIdeal.S4x100000x32.Idx) :
    Cert.ReferenceIdeal.Read.val_main_v26 (F := Ideal) x1 x2 i
      = FloatOps.addf (degreeCol x1 x2 (nodeAt i)) (FloatOps.ofBits .f32 0x1E3CE508#32) := by
  rw [Cert.ReferenceIdeal.Read.val_main_v26_apply, Cert.ReferenceIdeal.Read.val_main_v25_apply,
    Cert.ReferenceIdeal.Read.val_main_v23_apply, Cert.ReferenceIdeal.Read.val_main_v24_apply,
    Cert.ReferenceIdeal.Read.val_main_cst_2_apply]
  refine congrArg₂ FloatOps.addf ?_ rfl
  unfold degreeCol
  exact (shapeCast_apply (degree x1 x2) Cert.KernelIdeal.Facts₀.shapeCasts_S100000_S1x100000x1 (nodeAt i) _ (by
    rewrite [Shape.rowMajor_val_one, Shape.rowMajor_val_three]
    show (i 1).val = (0 * 100000 + (i 1).val) * 1 + 0
    omega)).symm

/-- At the ideal instance the reference's value is the kernel's value, as functions of the three arguments. -/
theorem value_eq (x0 : (⟨Cert.KernelIdeal.S4x100000x32, .f32⟩ : BufTy).Contents (Elt Ideal))
    (x1 : (⟨Cert.KernelIdeal.S1600000, .f32⟩ : BufTy).Contents (Elt Ideal))
    (x2 : (⟨Cert.KernelIdeal.S2x1600000, .i32⟩ : BufTy).Contents (Elt Ideal)) :
    Cert.ReferenceIdeal.Read.val_main_v27 (F := Ideal) x0 x1 x2 = kernelValue x0 x1 x2 := by
  funext i
  rw [Cert.ReferenceIdeal.Read.val_main_v27_apply, aggregate_eq, divisor_eq]
  rfl

end Cert.Bridge

end
-- ==== Proof.lean ====
/-
  Message passing over an edge list: out(b, n, :) = (Σ_{e : row e = n} exp(w_e) · x(b, col e, :)) / (Σ_{e : row e = n} exp(w_e) + ε).

  The kernel gathers the rows x(:, col e, :) on the host, scales them by exp(w_e) in a first region tiled over the edges,
  scatter-adds the scaled rows and the exponentials on the host, and divides in a second region tiled over the nodes; the
  reference does the same with host operations throughout. The certificate's five claims:

  * the three frames: the two kernels' by their launch over @main's four segments (two stretches of host operations and
    two regions), the reference's by its run as a straight line of host operations;
  * the idealization rewrote no operation, so the kernel's idealization is its own text read at the ideal instance;
  * the algebraic claim: the kernel's result is read back through the segments to one function of the arguments
    (`Stages.kernelValue`: each region's output array is one whole-array function of the arrays it reads, the blocks
    tiling it), the reference's run is its composed term, and the two are one function at the ideal instance
    (`Bridge.value_eq`: equal messages entry by entry, hence equal aggregates; one degree; equal quotients).
    Nothing is asked of the inputs: no law that fails at an infinity is used.
-/
import proofs.«120685_j52871047413895_2_alg».proof.Defs
import proofs.«120685_j52871047413895_2_alg».proof.Proof.Gen.Kernel
import proofs.«120685_j52871047413895_2_alg».proof.Proof.Gen.Kernel.Skeleton
import proofs.«120685_j52871047413895_2_alg».proof.Proof.Gen.Kernel.Launch
import proofs.«120685_j52871047413895_2_alg».proof.Proof.Gen.Kernel.Points
import proofs.«120685_j52871047413895_2_alg».proof.Proof.Gen.Kernel.Frame
import proofs.«120685_j52871047413895_2_alg».proof.Proof.Gen.KernelIdeal
import proofs.«120685_j52871047413895_2_alg».proof.Proof.Gen.KernelIdeal.Skeleton
import proofs.«120685_j52871047413895_2_alg».proof.Proof.Gen.KernelIdeal.Launch
import proofs.«120685_j52871047413895_2_alg».proof.Proof.Gen.KernelIdeal.Points
import proofs.«120685_j52871047413895_2_alg».proof.Proof.Gen.KernelIdeal.Frame
import proofs.«120685_j52871047413895_2_alg».proof.Proof.Gen.ReferenceIdeal
import proofs.«120685_j52871047413895_2_alg».proof.Proof.Gen.Pre_finite_inputs
import proofs.«120685_j52871047413895_2_alg».proof.Proof.Gen.ReferenceIdeal.Run
import proofs.«120685_j52871047413895_2_alg».proof.Proof.Gen.ReferenceIdeal.Read
import proofs.«120685_j52871047413895_2_alg».proof.Proof.KernelRun
import proofs.«120685_j52871047413895_2_alg».proof.Proof.Stages
import proofs.«120685_j52871047413895_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result at `kernelValue` of the (agreeing) arguments. -/
theorem algebraic : Cert.algebraic_KernelIdeal_ReferenceIdeal := by
  intro m ρ m' ρ' _ hagree
  refine ⟨fun c => Cert.KernelIdeal.Stages.kernelValue (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Stages.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.Bridge.value_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
